-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel

variable [Facts]

def fn {F : FTy → Type} [FloatOps F] (main_arg0 : FVec F S16x2048x256 .f32) (main_arg1 : FVec F S16x2048x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  main_v8
-- ==== Kernel.lean ====
abbrev S16x2048x256 : Shape := ⟨3, ![16, 2048, 256]⟩
abbrev S16x1x2048 : Shape := ⟨3, ![16, 1, 2048]⟩
abbrev S1x1024x256 : Shape := ⟨3, ![1, 1024, 256]⟩
abbrev S1x2048x256 : Shape := ⟨3, ![1, 2048, 256]⟩
abbrev S1x1x2048 : Shape := ⟨3, ![1, 1, 2048]⟩
abbrev S1x1x1024 : Shape := ⟨3, ![1, 1, 1024]⟩
abbrev S1024x256 : Shape := ⟨2, ![1024, 256]⟩
abbrev S2048x256 : Shape := ⟨2, ![2048, 256]⟩
abbrev S1024x2048 : Shape := ⟨2, ![1024, 2048]⟩
abbrev S1x1024 : Shape := ⟨2, ![1, 1024]⟩
abbrev S1x2048 : Shape := ⟨2, ![1, 2048]⟩
abbrev S16x2048 : Shape := ⟨2, ![16, 2048]⟩
abbrev S16x4096 : Shape := ⟨2, ![16, 4096]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x1x2048, .f32⟩
  | .hbm, ⟨3, _⟩ => ⟨S16x1x2048, .f32⟩
  | .hbm, ⟨4, _⟩ => ⟨S16x2048, .f32⟩
  | .hbm, ⟨5, _⟩ => ⟨S16x2048, .f32⟩
  | .hbm, ⟨6, _⟩ => ⟨S16x4096, .f32⟩
  | .local _ .vmem, ⟨0, _⟩ => ⟨S1x1024x256, .f32⟩
  | .local _ .vmem, ⟨1, _⟩ => ⟨S1x1024x256, .f32⟩
  | .local _ .vmem, ⟨2, _⟩ => ⟨S1x2048x256, .f32⟩
  | .local _ .vmem, ⟨3, _⟩ => ⟨S1x2048x256, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024, .f32⟩
  | .local _ .vmem, ⟨7, _⟩ => ⟨S1x1x1024, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S1x1x2048_S1x2048 : S1x1x2048.ShapeCasts S1x2048
  shapeCasts_S1x2048_S1x1x2048 : S1x2048.ShapeCasts S1x1x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S16x1x2048_S16x2048 : S16x1x2048.ShapeCasts S16x2048
  concatenates_S16x2048_S16x2048_S16x4096_d1 : Shape.Concatenates [S16x2048, S16x2048] S16x4096 1
  dot_S1024x256_S2048x256_S1024x2048_1_1_0_0_n_n_wf : DotDims.WF S1024x256 S2048x256 S1024x2048 [1] [1] [0] [0] [] []
  dot_S1x1024_S1024x2048_S1x2048_1_0_0_1_n_n_wf : DotDims.WF S1x1024 S1024x2048 S1x2048 [1] [0] [0] [1] [] []
  dot_S1x2048_S1024x2048_S1x1024_1_1_0_0_n_n_wf : DotDims.WF S1x2048 S1024x2048 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x2048x256.size a
  hwx0_0 : ∀ i : grid0.Coords, EltTy.bits .f32 = 32 ∨ (Rect.block (s := S16x2048x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x256.size a
  hwx0_1 : ∀ i : grid0.Coords, EltTy.bits .f32 = 32 ∨ (Rect.block (s := S16x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x2048.size a
  hwx0_2 : ∀ i : grid0.Coords, EltTy.bits .f32 = 32 ∨ (Rect.block (s := S16x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S16x1x2048.size a
  hwx0_3 : ∀ i : grid0.Coords, EltTy.bits .f32 = 32 ∨ (Rect.block (s := S16x1x2048) S1x1x1024.size (cc0_transform_3 i) (hinb0_3 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S16x2048x2048 : Shape := ⟨3, ![16, 2048, 2048]⟩
abbrev S_ : Shape := ⟨0, ![]⟩
abbrev S16x2048 : Shape := ⟨2, ![16, 2048]⟩
abbrev S16x4096 : Shape := ⟨2, ![16, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x2048, .f32⟩
  | .hbm, ⟨3, _⟩ => ⟨S_, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x4096, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S16x2048x2048_S16x2048_d1 : S16x2048x2048.ReducesTo [1] S16x2048
  h_S_ : 0 < S_.numel
  reducesTo_S16x2048x2048_S16x2048_d2 : S16x2048x2048.ReducesTo [2] S16x2048
  concatenates_S16x2048_S16x2048_S16x4096_d1 : Shape.Concatenates [S16x2048, S16x2048] S16x4096 1
  dot_S16x2048x256_S16x2048x256_S16x2048x2048_2_2_1_1_0_0_wf : DotDims.WF S16x2048x256 S16x2048x256 S16x2048x2048 [2] [2] [1] [1] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf

class Facts : Prop extends Facts₀ where

variable [Facts]
-- ==== Proof.Pieces.lean ====
/-
  What one run of the kernel body leaves in its two output blocks, as values of the blocks it loaded.

  The body's stores cover each output block whole, so the block's contents after the body are the last store's
  value. In the case of a batch's first tile the first output block is zeroed and read back before the
  accumulating store; in the other case it is read as the point before left it. Either way the first output block
  ends at "what it held, plus this tile's column sums" and the second at this tile's row sums.
-/
import proofs.«117064_j70970039599490_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz3 : (![0, 0, 0] : Fin 3 → Nat) = fun _ => 0 := funext fun a => by fin_cases a <;> rfl

/-- Not the first tile of a batch: the first output block, holding `xo`, ends at the accumulating store's value
    of the two loaded blocks and `xo`. -/
theorem out_B_2 (c : Dev nD) (i : grid0.Coords) (a2 : Memref sig .tc .vmem S1x1024x256 .f32) (h2 : a2.IsWhole)
    (a3 : Memref sig .tc .vmem S1x2048x256 .f32) (h3 : a3.IsWhole) (a4 : Memref sig .tc .vmem S1x1x2048 .f32) (h4 : a4.IsWhole)
    (a5 : Memref sig .tc .vmem S1x1x1024 .f32) (h5 : a5.IsWhole) (hc : ¬cond0_0 i)
    (x0 : Vec F S1x1024x256 .f32) (x1 : Vec F S1x2048x256 .f32) (xo : Vec F S1x1x2048 .f32) :
    out0_B_2 c i a2 h2 a3 h3 a4 h4 a5 h5 hc x0 x1 xo = k0_pay3 x0 x1 xo := by
  unfold out0_B_2
  rw [View.read_writes_eq_canon _ _ _ (cover0_B_2 c i a2 h2 a3 h3 a4 h4 a5 h5 hc x0 x1 xo)]
  unfold kernelRun0_B
  dsimp only
  rw [View.canon_unit_zero hz3]
  simp only [View.readAt_eq_ld, h2.read_unread, h3.read_unread, h4.read_unread, View.ld_unit_zero (S := S1x1024x256) hz3,
    View.ld_unit_zero (S := S1x2048x256) hz3, View.ld_unit_zero (S := S1x1x2048) hz3]

/-- Not the first tile of a batch: the second output block ends at the row-sum store's value. -/
theorem out_B_3 (c : Dev nD) (i : grid0.Coords) (a2 : Memref sig .tc .vmem S1x1024x256 .f32) (h2 : a2.IsWhole)
    (a3 : Memref sig .tc .vmem S1x2048x256 .f32) (h3 : a3.IsWhole) (a4 : Memref sig .tc .vmem S1x1x2048 .f32) (h4 : a4.IsWhole)
    (a5 : Memref sig .tc .vmem S1x1x1024 .f32) (h5 : a5.IsWhole) (hc : ¬cond0_0 i)
    (x0 : Vec F S1x1024x256 .f32) (x1 : Vec F S1x2048x256 .f32) (xo : Vec F S1x1x2048 .f32) :
    out0_B_3 c i a2 h2 a3 h3 a4 h4 a5 h5 hc x0 x1 xo = k0_pay4 x0 x1 := by
  unfold out0_B_3
  rw [View.read_writes_eq_canon _ _ _ (cover0_B_3 c i a2 h2 a3 h3 a4 h4 a5 h5 hc x0 x1 xo)]
  unfold kernelRun0_B
  dsimp only
  rw [View.canon_unit_zero hz3]
  simp only [View.readAt_eq_ld, h2.read_unread, h3.read_unread, View.ld_unit_zero (S := S1x1024x256) hz3,
    View.ld_unit_zero (S := S1x2048x256) hz3]

/-- The first tile of a batch: the first output block is zeroed, read back, and ends at the accumulating store's
    value of the two loaded blocks and the zero block. -/
theorem out_A_2 (c : Dev nD) (i : grid0.Coords) (a2 : Memref sig .tc .vmem S1x1024x256 .f32) (h2 : a2.IsWhole)
    (a3 : Memref sig .tc .vmem S1x2048x256 .f32) (h3 : a3.IsWhole) (a4 : Memref sig .tc .vmem S1x1x2048 .f32) (h4 : a4.IsWhole)
    (a5 : Memref sig .tc .vmem S1x1x1024 .f32) (h5 : a5.IsWhole) (hc : cond0_0 i)
    (x0 : Vec F S1x1024x256 .f32) (x1 : Vec F S1x2048x256 .f32) :
    out0_A_2 c i a2 h2 a3 h3 a4 h4 a5 h5 hc x0 x1 = k0_pay3 x0 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, View.ld_unit_zero (S := S1x1024x256) hz3,
    View.ld_unit_zero (S := S1x2048x256) hz3]

/-- The first tile of a batch: the second output block ends at the row-sum store's value. -/
theorem out_A_3 (c : Dev nD) (i : grid0.Coords) (a2 : Memref sig .tc .vmem S1x1024x256 .f32) (h2 : a2.IsWhole)
    (a3 : Memref sig .tc .vmem S1x2048x256 .f32) (h3 : a3.IsWhole) (a4 : Memref sig .tc .vmem S1x1x2048 .f32) (h4 : a4.IsWhole)
    (a5 : Memref sig .tc .vmem S1x1x1024 .f32) (h5 : a5.IsWhole) (hc : cond0_0 i)
    (x0 : Vec F S1x1024x256 .f32) (x1 : Vec F S1x2048x256 .f32) :
    out0_A_3 c i a2 h2 a3 h3 a4 h4 a5 h5 hc x0 x1 = k0_pay4 x0 x1 := by
  unfold out0_A_3
  rw [View.read_writes_eq_canon _ _ _ (cover0_A_3 c i a2 h2 a3 h3 a4 h4 a5 h5 hc x0 x1)]
  unfold kernelRun0_A
  dsimp only
  rw [View.canon_unit_zero hz3]
  simp only [View.readAt_eq_ld, h2.read_unread, h3.read_unread, View.ld_unit_zero (S := S1x1024x256) hz3,
    View.ld_unit_zero (S := S1x2048x256) hz3]

end Cert.KernelIdeal.Pieces

end
-- ==== Proof.Blocks.lean ====
/-
  The grid and what each point works on.

  The 32 grid points run batch by batch, two tiles per batch: point `t` is tile `t % 2` of batch `t / 2`. It
  reads rows `1024 * (t % 2) + n` of the first operand's batch and all rows of the second operand's batch. Its first
  output block (one per batch) is carried from the even point to the odd point of the batch; its second output block
  is the tile's own.
-/
import proofs.«117064_j70970039599490_2_alg».proof.Proof.Pieces
import Idealize.ShloMosaic.Lib.ValueIdx

noncomputable section

namespace Cert.KernelIdeal.Blocks

open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]
variable (m : (ℓ : Loc nD τ sig) → Buf (Elt F) ℓ)

/-- The four windows' block indices at point `t`, decided over the grid: the batch is `t / 2`, the tile `t % 2`. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = t.val % 2 :=
  (by decide +kernel : ∀ t : Fin grid0.N, _)

/-- The first operand's block at point `t`: row `n` of the block is row `1024 * (t % 2) + n` of batch `t / 2`. -/
theorem iblk0_at (c : Dev nD) (t : Fin cfg0.N) (o : Fin 1) (n : Fin 1024) (d : Fin 256) (b : Fin 16) (r : Fin 2048)
    (hb : b.val = t.val / 2) (hr : r.val = t.val % 2 * 1024 + n.val) :
    (iblk m c 0 t : Vec F S1x1024x256 .f32) (ix3 o n d) = V m c main_arg0 (ix3 b r d) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * o.val = b.val; omega
  | ⟨1, _⟩ => show win0_0.index t (1 : Fin 3) * 1024 + 1 * n.val = r.val; omega
  | ⟨2, _⟩ => show win0_0.index t (2 : Fin 3) * 256 + 1 * d.val = d.val; omega

/-- The second operand's block at point `t`: all rows of batch `t / 2`. -/
theorem iblk1_at (c : Dev nD) (t : Fin cfg0.N) (o : Fin 1) (mm : Fin 2048) (d : Fin 256) (b : Fin 16)
    (hb : b.val = t.val / 2) :
    (iblk m c 1 t : Vec F S1x2048x256 .f32) (ix3 o mm d) = V m c main_arg1 (ix3 b mm d) := by
  obtain ⟨-, -, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * o.val = b.val; omega
  | ⟨1, _⟩ => show win0_1.index t (1 : Fin 3) * 2048 + 1 * mm.val = mm.val; omega
  | ⟨2, _⟩ => show win0_1.index t (2 : Fin 3) * 256 + 1 * d.val = d.val; omega

/-! ## What the output buffers hold after each point -/

/-- After any point the second output buffer holds the row sums of the point's own tile. -/
theorem outs_snd (c : Dev nD) (t : Fin cfg0.N) :
    (outsAt0 m c t.val t.isLt).2 = k0_pay4 (iblk m c 0 t) (iblk m c 1 t) := by
  by_cases h0 : t.val % 2 = 0
  · rw [outsAt0_A m c t h0]
    dsimp only
    exact Pieces.out_A_3 (F := F) c (grid0.coords t) (ms0_0 t) (hs0_0 t) (ms0_1 t) (hs0_1 t) (ms0_2 t) (hs0_2 t) (ms0_3 t) (hs0_3 t)
      ((hcond0_0 t).mpr h0) (iblk m c 0 t) (iblk m c 1 t)
  · rw [outsAt0_B m c t h0]
    dsimp only
    exact Pieces.out_B_3 (F := F) c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t)
      (outsAt0 m c (t.val - 1) (Nat.lt_of_le_of_lt (Nat.sub_le _ _) t.isLt)).1

/-- After a batch's first tile the first output buffer holds that tile's column sums over the zero block. -/
theorem outs_fst_even (c : Dev nD) (t : Fin cfg0.N) (h0 : t.val % 2 = 0) :
    (outsAt0 m c t.val t.isLt).1 = k0_pay3 (iblk m c 0 t) (iblk m c 1 t) k0_pay1 := by
  rw [outsAt0_A m c t h0]
  dsimp only
  exact Pieces.out_A_2 (F := F) c (grid0.coords t) (ms0_0 t) (hs0_0 t) (ms0_1 t) (hs0_1 t) (ms0_2 t) (hs0_2 t) (ms0_3 t) (hs0_3 t)
    ((hcond0_0 t).mpr h0) (iblk m c 0 t) (iblk m c 1 t)

/-- After a batch's second tile it holds that tile's column sums over what the first tile left. -/
theorem outs_fst_odd (c : Dev nD) (t : Fin cfg0.N) (h0 : ¬t.val % 2 = 0) :
    (outsAt0 m c t.val t.isLt).1 = k0_pay3 (iblk m c 0 t) (iblk m c 1 t)
      (outsAt0 m c (t.val - 1) (Nat.lt_of_le_of_lt (Nat.sub_le _ _) t.isLt)).1 := by
  rw [outsAt0_B m c t h0]
  dsimp only
  exact Pieces.out_B_2 (F := F) c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t)
    (outsAt0 m c (t.val - 1) (Nat.lt_of_le_of_lt (Nat.sub_le _ _) t.isLt)).1

end Cert.KernelIdeal.Blocks

end
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.LibUnitAxis.lean ====
/-
  Casts between a rank-2 shape `[a, b]` and the same data with a unit axis, leading `[1, a, b]` or in the middle
  `[a, 1, b]`, read at an index written by its coordinates: dropping a leading unit axis reads `(p, q)` at `(0, p, q)`,
  adding it reads `(o, p, q)` at `(p, q)`, dropping a middle unit axis reads `(p, q)` at `(p, 0, q)` — in each case the
  two indices have the same row-major position.
-/
import Idealize.ShloMosaic.Lib.ValueIdx
import Idealize.ShloMosaic.Lib.Pipeline.Value

noncomputable section

namespace Cert.LibUnitAxis

open Idealize.ShloMosaic Idealize.ShloMosaic.ValueIdx

/-- `[1, a, b]` viewed as `[a, b]`: entry `(p, q)` is entry `(0, p, q)`. -/
theorem dropUnit_ix {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    simp)

/-- `[a, b]` viewed as `[1, a, b]`: entry `(o, p, q)` is entry `(p, q)`. -/
theorem addUnit_ix {α : Type} {a b : Nat} (v : (⟨2, ![a, b]⟩ : Shape).Idx → α)
    (h : (⟨2, ![a, b]⟩ : Shape).ShapeCasts ⟨3, ![1, a, b]⟩) (o : Fin 1) (p : Fin a) (q : Fin b) :
    shapeCast ⟨3, ![1, a, b]⟩ v h (ix3 o p q) = v (ix2 p q) :=
  shapeCast_apply v h _ _ (by
    rw [Shape.rowMajor_val_three, Shape.rowMajor_val_two]
    show p.val * b + q.val = (o.val * a + p.val) * b + q.val
    have : o.val = 0 := by omega
    simp [this])

/-- `[a, 1, b]` viewed as `[a, b]`: entry `(p, q)` is entry `(p, 0, q)`. -/
theorem dropMid_ix {α : Type} {a b : Nat} (v : (⟨3, ![a, 1, b]⟩ : Shape).Idx → α)
    (h : (⟨3, ![a, 1, b]⟩ : Shape).ShapeCasts ⟨2, ![a, b]⟩) (p : Fin a) (q : Fin b) :
    shapeCast ⟨2, ![a, b]⟩ v h (ix2 p q) = v (ix3 p (0 : Fin 1) q) :=
  shapeCast_apply v h _ _ (by
    rw [Shape.rowMajor_val_three, Shape.rowMajor_val_two]
    show (p.val * 1 + 0) * b + q.val = p.val * b + q.val
    simp)

end Cert.LibUnitAxis

end
-- ==== Proof.Payloads.lean ====
/-
  The kernel body's arithmetic at the ideal values, read entry by entry.

  At one grid point the body holds a tile `x` of 1024 rows of the first operand and all 2048 rows `y` of the second
  (both with 256 columns), forms the score tile `S n m = ∑ d, x n d * y m d`, and reduces it both ways by products with
  a row of ones: the column sums `∑ n, 1 * S n m` are ADDED to what the first output block held, the row sums
  `∑ m, 1 * S n m` are the second output block. At the first tile of a batch the first output block is zeroed beforehand.
-/
import proofs.«117064_j70970039599490_2_alg».proof.Proof.Gen.KernelIdeal.Skeleton
import proofs.«117064_j70970039599490_2_alg».proof.Proof.LibTileDot
import proofs.«117064_j70970039599490_2_alg».proof.Proof.LibUnitAxis
import Idealize.ShloMosaic.Lib.Pipeline.Value
import Idealize.ShloMosaic.Lib.IdealHost

noncomputable section

namespace Cert.KernelIdeal.Payloads

open Idealize.ShloMosaic Idealize.ShloMosaic.ValueIdx Cert.KernelIdeal Cert.KernelIdeal.Gen Cert.LibUnitAxis

/-! ## Where each product reads its operands

  For each of the three products, the operand coordinates the dimension numbers assign to an output index `j` and
  a contraction index `q`. -/

theorem sc_l0 (j : _) (q : dot_S1024x256_S2048x256_S1024x2048_1_1_0_0_n_n.contr.Idx) : (dot_S1024x256_S2048x256_S1024x2048_1_1_0_0_n_n.lhsIdx j q 0).val = (j 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem sc_l1 (j : _) (q : dot_S1024x256_S2048x256_S1024x2048_1_1_0_0_n_n.contr.Idx) : (dot_S1024x256_S2048x256_S1024x2048_1_1_0_0_n_n.lhsIdx j q 1).val = (q ⟨0, by decide⟩).val :=
  dot_S1024x256_S2048x256_S1024x2048_1_1_0_0_n_n.lhsIdx_val_of_single rfl j q
theorem sc_r0 (j : _) (q : dot_S1024x256_S2048x256_S1024x2048_1_1_0_0_n_n.contr.Idx) : (dot_S1024x256_S2048x256_S1024x2048_1_1_0_0_n_n.rhsIdx j q 0).val = (j 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem sc_r1 (j : _) (q : dot_S1024x256_S2048x256_S1024x2048_1_1_0_0_n_n.contr.Idx) : (dot_S1024x256_S2048x256_S1024x2048_1_1_0_0_n_n.rhsIdx j q 1).val = (q ⟨0, by decide⟩).val :=
  dot_S1024x256_S2048x256_S1024x2048_1_1_0_0_n_n.rhsIdx_val_of_single rfl j q

theorem cs_l0 (j : _) (q : dot_S1x1024_S1024x2048_S1x2048_1_0_0_1_n_n.contr.Idx) : (dot_S1x1024_S1024x2048_S1x2048_1_0_0_1_n_n.lhsIdx j q 0).val = (j 0).val := by
  unfold DotDims.lhsIdx
  rw [dif_neg (show ¬(0 : Fin S1x1024.rank) ∈ dot_S1x1024_S1024x2048_S1x2048_1_0_0_1_n_n.lhsBatch by decide), dif_pos (show (0 : Fin S1x1024.rank) ∈ dot_S1x1024_S1024x2048_S1x2048_1_0_0_1_n_n.lhsNonContracting by decide)]
  rfl
theorem cs_l1 (j : _) (q : dot_S1x1024_S1024x2048_S1x2048_1_0_0_1_n_n.contr.Idx) : (dot_S1x1024_S1024x2048_S1x2048_1_0_0_1_n_n.lhsIdx j q 1).val = (q ⟨0, by decide⟩).val :=
  dot_S1x1024_S1024x2048_S1x2048_1_0_0_1_n_n.lhsIdx_val_of_single rfl j q
theorem cs_r0 (j : _) (q : dot_S1x1024_S1024x2048_S1x2048_1_0_0_1_n_n.contr.Idx) : (dot_S1x1024_S1024x2048_S1x2048_1_0_0_1_n_n.rhsIdx j q 0).val = (q ⟨0, by decide⟩).val :=
  dot_S1x1024_S1024x2048_S1x2048_1_0_0_1_n_n.rhsIdx_val_of_single rfl j q
theorem cs_r1 (j : _) (q : dot_S1x1024_S1024x2048_S1x2048_1_0_0_1_n_n.contr.Idx) : (dot_S1x1024_S1024x2048_S1x2048_1_0_0_1_n_n.rhsIdx j q 1).val = (j 1).val := by
  unfold DotDims.rhsIdx
  rw [dif_neg (show ¬(1 : Fin S1024x2048.rank) ∈ dot_S1x1024_S1024x2048_S1x2048_1_0_0_1_n_n.rhsBatch by decide), dif_pos (show (1 : Fin S1024x2048.rank) ∈ dot_S1x1024_S1024x2048_S1x2048_1_0_0_1_n_n.rhsNonContracting by decide)]
  rfl

theorem rs_l0 (j : _) (q : dot_S1x2048_S1024x2048_S1x1024_1_1_0_0_n_n.contr.Idx) : (dot_S1x2048_S1024x2048_S1x1024_1_1_0_0_n_n.lhsIdx j q 0).val = (j 0).val := by
  unfold DotDims.lhsIdx
  rw [dif_neg (show ¬(0 : Fin S1x2048.rank) ∈ dot_S1x2048_S1024x2048_S1x1024_1_1_0_0_n_n.lhsBatch by decide), dif_pos (show (0 : Fin S1x2048.rank) ∈ dot_S1x2048_S1024x2048_S1x1024_1_1_0_0_n_n.lhsNonContracting by decide)]
  rfl
theorem rs_l1 (j : _) (q : dot_S1x2048_S1024x2048_S1x1024_1_1_0_0_n_n.contr.Idx) : (dot_S1x2048_S1024x2048_S1x1024_1_1_0_0_n_n.lhsIdx j q 1).val = (q ⟨0, by decide⟩).val :=
  dot_S1x2048_S1024x2048_S1x1024_1_1_0_0_n_n.lhsIdx_val_of_single rfl j q
theorem rs_r0 (j : _) (q : dot_S1x2048_S1024x2048_S1x1024_1_1_0_0_n_n.contr.Idx) : (dot_S1x2048_S1024x2048_S1x1024_1_1_0_0_n_n.rhsIdx j q 0).val = (j 1).val := by
  unfold DotDims.rhsIdx
  rw [dif_neg (show ¬(0 : Fin S1024x2048.rank) ∈ dot_S1x2048_S1024x2048_S1x1024_1_1_0_0_n_n.rhsBatch by decide), dif_pos (show (0 : Fin S1024x2048.rank) ∈ dot_S1x2048_S1024x2048_S1x1024_1_1_0_0_n_n.rhsNonContracting by decide)]
  rfl
theorem rs_r1 (j : _) (q : dot_S1x2048_S1024x2048_S1x1024_1_1_0_0_n_n.contr.Idx) : (dot_S1x2048_S1024x2048_S1x1024_1_1_0_0_n_n.rhsIdx j q 1).val = (q ⟨0, by decide⟩).val :=
  dot_S1x2048_S1024x2048_S1x1024_1_1_0_0_n_n.rhsIdx_val_of_single rfl j q

/-! ## The payloads at an index -/

/-- The score tile: entry `(n, m)` is the inner product of row `n` of the first block with row `m` of the second. -/
theorem score_at (x : Vec Ideal S1x1024x256 .f32) (y : Vec Ideal S1x2048x256 .f32) (n : Fin 1024) (mm : Fin 2048) :
    k0_pay2 (F := Ideal) x y (ix2 n mm) = ∑ d : Fin 256, x (ix3 0 n d) * y (ix3 0 mm d) := by
  unfold k0_pay2
  simp only [matmul]
  rw [Cert.LibTileDot.matmul_zero_at dot_S1024x256_S2048x256_S1024x2048_1_1_0_0_n_n (some .fp32) 256 rfl rfl _ _ _
    (fun k => ix2 n k) (fun k => ix2 mm k)
    (fun k => funext fun a => Fin.ext (by
      have hk := contrEquiv1_symm_val dot_S1024x256_S2048x256_S1024x2048_1_1_0_0_n_n 256 rfl rfl k
      match a with
      | ⟨0, _⟩ => exact sc_l0 _ _
      | ⟨1, _⟩ => exact (sc_l1 _ _).trans hk))
    (fun k => funext fun a => Fin.ext (by
      have hk := contrEquiv1_symm_val dot_S1024x256_S2048x256_S1024x2048_1_1_0_0_n_n 256 rfl rfl k
      match a with
      | ⟨0, _⟩ => exact sc_r0 _ _
      | ⟨1, _⟩ => exact (sc_r1 _ _).trans hk))]
  refine Finset.sum_congr rfl fun d _ => ?_
  rw [dropUnit_ix x, dropUnit_ix y]

/-- The zero block the first tile of a batch stores: every entry is `0`. -/
theorem zero_at (i : S1x1x2048.Idx) : k0_pay1 (F := Ideal) i = 0 := by
  unfold k0_pay1
  exact Ideal.ofBits_zero_f32

/-- The first output block after a point: what it held, plus the column sums of the score tile (each score
    multiplied by the `1` of the row of ones). -/
theorem colsum_at (x : Vec Ideal S1x1024x256 .f32) (y : Vec Ideal S1x2048x256 .f32) (acc : Vec Ideal S1x1x2048 .f32)
    (o o' : Fin 1) (mm : Fin 2048) :
    k0_pay3 (F := Ideal) x y acc (ix3 o o' mm)
      = acc (ix3 0 0 mm) + ∑ n : Fin 1024, 1 * k0_pay2 (F := Ideal) x y (ix2 n mm) := by
  unfold k0_pay3
  rw [addUnit_ix]
  obtain rfl : o' = 0 := Subsingleton.elim _ _
  rw [addf_apply, dropUnit_ix acc]
  refine congrArg (_ + ·) ?_
  simp only [matmul]
  rw [Cert.LibTileDot.matmul_zero_at dot_S1x1024_S1024x2048_S1x2048_1_0_0_1_n_n (some .fp32) 1024 rfl rfl _ _ _
    (fun k => ix2 0 k) (fun k => ix2 k mm)
    (fun k => funext fun a => Fin.ext (by
      have hk := contrEquiv1_symm_val dot_S1x1024_S1024x2048_S1x2048_1_0_0_1_n_n 1024 rfl rfl k
      match a with
      | ⟨0, _⟩ => exact cs_l0 _ _
      | ⟨1, _⟩ => exact (cs_l1 _ _).trans hk))
    (fun k => funext fun a => Fin.ext (by
      have hk := contrEquiv1_symm_val dot_S1x1024_S1024x2048_S1x2048_1_0_0_1_n_n 1024 rfl rfl k
      match a with
      | ⟨0, _⟩ => exact (cs_r0 _ _).trans hk
      | ⟨1, _⟩ => exact cs_r1 _ _))]
  refine Finset.sum_congr rfl fun n _ => ?_
  rw [broadcast_apply]
  exact congrArg (· * _) Ideal.ofBits_one_f32

/-- The second output block after a point: the row sums of the score tile (each score multiplied by the `1` of
    the row of ones). -/
theorem rowsum_at (x : Vec Ideal S1x1024x256 .f32) (y : Vec Ideal S1x2048x256 .f32) (o o' : Fin 1) (n : Fin 1024) :
    k0_pay4 (F := Ideal) x y (ix3 o o' n) = ∑ mm : Fin 2048, 1 * k0_pay2 (F := Ideal) x y (ix2 n mm) := by
  unfold k0_pay4
  rw [addUnit_ix]
  obtain rfl : o' = 0 := Subsingleton.elim _ _
  simp only [matmul]
  rw [Cert.LibTileDot.matmul_zero_at dot_S1x2048_S1024x2048_S1x1024_1_1_0_0_n_n (some .fp32) 2048 rfl rfl _ _ _
    (fun k => ix2 0 k) (fun k => ix2 n k)
    (fun k => funext fun a => Fin.ext (by
      have hk := contrEquiv1_symm_val dot_S1x2048_S1024x2048_S1x1024_1_1_0_0_n_n 2048 rfl rfl k
      match a with
      | ⟨0, _⟩ => exact rs_l0 _ _
      | ⟨1, _⟩ => exact (rs_l1 _ _).trans hk))
    (fun k => funext fun a => Fin.ext (by
      have hk := contrEquiv1_symm_val dot_S1x2048_S1024x2048_S1x1024_1_1_0_0_n_n 2048 rfl rfl k
      match a with
      | ⟨0, _⟩ => exact rs_r0 _ _
      | ⟨1, _⟩ => exact (rs_r1 _ _).trans hk))]
  refine Finset.sum_congr rfl fun mm _ => ?_
  rw [broadcast_apply]
  exact congrArg (· * _) Ideal.ofBits_one_f32

end Cert.KernelIdeal.Payloads

end
-- ==== Proof.Marginals.lean ====
/-
  The two marginals of a batched score matrix, as functions of the two operands.

  For operands `x, y` of shape `[16, 2048, 256]` the score of batch `b` is `S b n m = ∑ d, x (b, n, d) * y (b, m, d)`.
  Its sum over the rows `n` is a `[16, 2048]` array indexed by `(b, m)`; its sum over the columns `m` is a `[16, 2048]`
  array indexed by `(b, n)`. Both are plain finite sums on the extended reals; the only regrouping ever needed is that a
  sum over 2048 rows is the sum over the first 1024 plus the sum over the last 1024, which is associativity and
  commutativity of addition and holds at the infinities too.
-/
import Idealize.ShloMosaic.Lib.ValueIdx
import Idealize.ShloMosaic.PureOps.Ideal

noncomputable section

namespace Cert.Marginals

open Idealize.ShloMosaic Idealize.ShloMosaic.ValueIdx

/-- The operands' index set and the marginals' index set. -/
abbrev OpIdx := (⟨3, ![16, 2048, 256]⟩ : Shape).Idx
abbrev MargIdx := (⟨2, ![16, 2048]⟩ : Shape).Idx

/-- The score of batch `b`: row `n` of `x` against row `mm` of `y`. -/
def score (x y : OpIdx → EReal) (b : Fin 16) (n mm : Fin 2048) : EReal :=
  ∑ d : Fin 256, x (ix3 b n d) * y (ix3 b mm d)

/-- The scores summed over the rows of `x`: at `(b, mm)`, `∑ n, S b n mm`. -/
def overRows (x y : OpIdx → EReal) : MargIdx → EReal := fun i => ∑ n : Fin 2048, score x y (i 0) n (i 1)

/-- The scores summed over the rows of `y`: at `(b, n)`, `∑ mm, S b n mm`. -/
def overCols (x y : OpIdx → EReal) : MargIdx → EReal := fun i => ∑ mm : Fin 2048, score x y (i 0) (i 1) mm

/-- Row `n` of the first (`r = 0`) or second (`r = 1`) tile of 1024 rows. -/
def tileRow (r : Fin 2) (n : Fin 1024) : Fin 2048 := ⟨r.val * 1024 + n.val, by omega⟩

/-- A sum over the 2048 rows is the sum over the first tile's rows plus the sum over the second tile's. -/
theorem sum_two_tiles {M : Type} [AddCommMonoid M] (f : Fin 2048 → M) :
    ∑ n : Fin 2048, f n = (∑ n : Fin 1024, f (tileRow 0 n)) + ∑ n : Fin 1024, f (tileRow 1 n) := by
  have h := Fin.sum_univ_add (a := 1024) (b := 1024) (f := f)
  refine h.trans ?_
  congr 1

end Cert.Marginals

end
-- ==== Proof.Arrays.lean ====
/-
  The two output arrays of the kernel after the run, at the ideal values.

  The second output array `[16, 1, 2048]` is written back tile by tile: point `t` writes entries
  `(t / 2, 0, 1024 * (t % 2) + n)`, each the sum over all columns `m` of the score of row `1024 * (t % 2) + n`. The first
  output array `[16, 1, 2048]` is written back once per batch, after the batch's second tile, and then holds at
  `(b, 0, m)` the zero block plus the first tile's column sums plus the second tile's: the sum over all 2048 rows.
-/
import proofs.«117064_j70970039599490_2_alg».proof.Proof.Blocks
import proofs.«117064_j70970039599490_2_alg».proof.Proof.Payloads
import proofs.«117064_j70970039599490_2_alg».proof.Proof.Marginals

noncomputable section

namespace Cert.KernelIdeal.Arrays

open Idealize.ShloMosaic Idealize.ShloMosaic.TcCoe Idealize.ShloMosaic.ValueIdx Idealize.SL.Sem Cert.KernelIdeal Cert.KernelIdeal.Gen
open Idealize.ShloMosaic.Pipeline (Dat)
open Cert.Marginals (score overRows overCols tileRow)

variable (m : (ℓ : Loc nD τ sig) → Buf (Elt Ideal) ℓ)

theorem N32 : cfg0.N = 32 := N_0

/-- The batch of point `t`, and which of the batch's two tiles it is. -/
def batchOf (t : Fin cfg0.N) : Fin 16 := ⟨t.val / 2, by have := lt_of_lt_of_eq t.isLt N32; omega⟩
def tileOf (t : Fin cfg0.N) : Fin 2 := ⟨t.val % 2, by omega⟩

/-- One entry of the score tile a point forms is the score of its batch, at the tile's row. -/
theorem tile_score (c : Dev nD) (t : Fin cfg0.N) (n : Fin 1024) (mm : Fin 2048) (b : Fin 16) (r : Fin 2)
    (hb : b.val = t.val / 2) (hr : r.val = t.val % 2) :
    k0_pay2 (F := Ideal) (iblk m c 0 t) (iblk m c 1 t) (ix2 n mm)
      = score (V m c main_arg0) (V m c main_arg1) b (tileRow r n) mm := by
  refine (Payloads.score_at (iblk m c 0 t) (iblk m c 1 t) n mm).trans ?_
  unfold score
  refine Finset.sum_congr rfl fun d _ => ?_
  rw [Blocks.iblk0_at m c t 0 n d b (tileRow r n) hb (by show r.val * 1024 + n.val = _; rw [hr]),
    Blocks.iblk1_at m c t 0 mm d b hb]

/-! ## The second output array: the sums over the columns -/

/-- The whole-array function the second output array ends at. -/
def G3 (c : Dev nD) : S16x1x2048.Idx → EReal :=
  fun i => overCols (V m c main_arg0) (V m c main_arg1) (ix2 (i 0) (i 2))

/-- What a point leaves in the second output block, entry by entry. -/
theorem snd_at (c : Dev nD) (t : Fin cfg0.N) (o o' : Fin 1) (n : Fin 1024) :
    (outsAt0 m c t.val t.isLt).2 (ix3 o o' n)
      = overCols (V m c main_arg0) (V m c main_arg1) (ix2 (batchOf t) (tileRow (tileOf t) n)) := by
  refine (congrFun (Blocks.outs_snd m c t) _).trans ?_
  refine (Payloads.rowsum_at (iblk m c 0 t) (iblk m c 1 t) o o' n).trans ?_
  unfold overCols
  refine Finset.sum_congr rfl fun mm _ => ?_
  rw [one_mul]
  exact tile_score m c t n mm (batchOf t) (tileOf t) rfl rfl

/-- What point `t` writes back to the second output array is block `t` of `G3`. -/
theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  obtain ⟨-, -, -, -, -, -, -, -, -, e0, e1, e2⟩ := Blocks.idx_facts t
  funext j
  obtain ⟨o, o', n, rfl⟩ : ∃ (o o' : Fin 1) (n : Fin 1024), j = ix3 o o' n := ⟨j 0, j 1, j 2, eq_ix3 j⟩
  show (outsAt0 m c t.val t.isLt).2 (ix3 o o' n) = G3 m c (((cfg0.win 3).blk t).view.emb (ix3 o o' n))
  have he : ((cfg0.win 3).blk t).view.emb (ix3 o o' n) = (ix3 (batchOf t) 0 (tileRow (tileOf t) n) : S16x1x2048.Idx) := by
    funext a; apply Fin.ext
    match a with
    | ⟨0, _⟩ => show win0_3.index t (0 : Fin 3) * 1 + 1 * o.val = t.val / 2; omega
    | ⟨1, _⟩ => show win0_3.index t (1 : Fin 3) * 1 + 1 * o'.val = 0; omega
    | ⟨2, _⟩ => show win0_3.index t (2 : Fin 3) * 1024 + 1 * n.val = t.val % 2 * 1024 + n.val; omega
  rw [he]
  exact snd_at m c t o o' n

/-- An index of the second output array is in point `t`'s block iff each coordinate is in the block's range. -/
theorem mem_blk3 (t : Fin cfg0.N) (i : S16x1x2048.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v0_1).slice (win0_3.rect t)).set ↔ _
  rw [View.set_slice_whole, Rect.mem_set_unit]
  exact Iff.rfl

/-- Every entry `(b, 0, k)` of the second output array is in the block of tile `k / 1024` of batch `b`. -/
theorem cover3 (i : S16x1x2048.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 2048 := (i 2).isLt
  let t : Fin cfg0.N := ⟨2 * (i 0).val + (i 2).val / 1024, by rw [N32]; omega⟩
  have ht : t.val = 2 * (i 0).val + (i 2).val / 1024 := rfl
  obtain ⟨-, -, -, -, -, -, -, -, -, e0, e1, e2⟩ := Blocks.idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1024 ≤ (i 2).val ∧ (i 2).val < win0_3.index t (2 : Fin 3) * 1024 + 1024; omega

/-- The second output array after the run. -/
theorem final3 (c : Dev nD) : (dats m 0 c).arrAt 3 cfg0.N = G3 m c :=
  (dats m 0 c).arrAt_eq_of_cover 3 (G3 m c) (fun t _ => flushed3_eq m c t) cover3

/-! ## The first output array: the sums over the rows -/

/-- The whole-array function the first output array ends at. -/
def G2 (c : Dev nD) : S16x1x2048.Idx → EReal :=
  fun i => overRows (V m c main_arg0) (V m c main_arg1) (ix2 (i 0) (i 2))

/-- What a batch's second tile leaves in the first output block, entry by entry: the zero block, plus the first
    tile's column sums, plus the second tile's — the sum over all 2048 rows. -/
theorem fst_at (c : Dev nD) (t : Fin cfg0.N) (h0 : ¬t.val % 2 = 0) (o o' : Fin 1) (mm : Fin 2048) :
    (outsAt0 m c t.val t.isLt).1 (ix3 o o' mm)
      = overRows (V m c main_arg0) (V m c main_arg1) (ix2 (batchOf t) mm) := by
  have hN : t.val < 32 := lt_of_lt_of_eq t.isLt N32
  let t' : Fin cfg0.N := ⟨t.val - 1, Nat.lt_of_le_of_lt (Nat.sub_le _ _) t.isLt⟩
  have ht' : t'.val = t.val - 1 := rfl
  have h0' : t'.val % 2 = 0 := by omega
  refine (congrFun (Blocks.outs_fst_odd m c t h0) _).trans ?_
  refine (Payloads.colsum_at (iblk m c 0 t) (iblk m c 1 t) _ o o' mm).trans ?_
  have eacc : (outsAt0 m c (t.val - 1) (Nat.lt_of_le_of_lt (Nat.sub_le _ _) t.isLt)).1 (ix3 0 0 mm)
      = 0 + ∑ n : Fin 1024, 1 * k0_pay2 (F := Ideal) (iblk m c 0 t') (iblk m c 1 t') (ix2 n mm) := by
    refine (congrFun (Blocks.outs_fst_even m c t' h0') _).trans ?_
    refine (Payloads.colsum_at (iblk m c 0 t') (iblk m c 1 t') (k0_pay1 (F := Ideal)) 0 0 mm).trans ?_
    rw [Payloads.zero_at]
  rw [eacc]
  unfold overRows
  rw [Cert.Marginals.sum_two_tiles, zero_add]
  show _ = (∑ n : Fin 1024, score _ _ (batchOf t) (tileRow 0 n) mm) + ∑ n : Fin 1024, score _ _ (batchOf t) (tileRow 1 n) mm
  refine congrArg₂ (· + ·) (Finset.sum_congr rfl fun n _ => ?_) (Finset.sum_congr rfl fun n _ => ?_)
  · rw [one_mul]
    exact tile_score m c t' n mm (batchOf t) 0 (by show t.val / 2 = t'.val / 2; omega) (by show 0 = t'.val % 2; omega)
  · rw [one_mul]
    exact tile_score m c t n mm (batchOf t) 1 rfl (by show 1 = t.val % 2; omega)

/-- What a writing-back point `t` writes to the first output array is block `t` of `G2`. -/
theorem flushed2_eq (c : Dev nD) (t : Fin cfg0.N) (hf : (cfg0.win 2).flush t = true) :
    (dats m 0 c).flushed 2 t = ((cfg0.win 2).blk t).view.read (Elt Ideal) (G2 m c) := by
  have h1 : t.val % 2 = 1 := (flush0_2 t).mp hf
  show (cfg0.win 2).cut (grid0.coords t) ((dats m 0 c).after 2 t) = _
  rw [after0_2]
  obtain ⟨-, -, -, -, -, -, e0, e1, e2, -⟩ := Blocks.idx_facts t
  funext j
  obtain ⟨o, o', mm, rfl⟩ : ∃ (o o' : Fin 1) (mm : Fin 2048), j = ix3 o o' mm := ⟨j 0, j 1, j 2, eq_ix3 j⟩
  show (outsAt0 m c t.val t.isLt).1 (ix3 o o' mm) = G2 m c (((cfg0.win 2).blk t).view.emb (ix3 o o' mm))
  have he : ((cfg0.win 2).blk t).view.emb (ix3 o o' mm) = (ix3 (batchOf t) 0 mm : S16x1x2048.Idx) := by
    funext a; apply Fin.ext
    match a with
    | ⟨0, _⟩ => show win0_2.index t (0 : Fin 3) * 1 + 1 * o.val = t.val / 2; omega
    | ⟨1, _⟩ => show win0_2.index t (1 : Fin 3) * 1 + 1 * o'.val = 0; omega
    | ⟨2, _⟩ => show win0_2.index t (2 : Fin 3) * 2048 + 1 * mm.val = mm.val; omega
  rw [he]
  exact fst_at m c t (by omega) o o' mm

/-- An index of the first output array is in point `t`'s block iff each coordinate is in the block's range. -/
theorem mem_blk2 (t : Fin cfg0.N) (i : S16x1x2048.Idx) :
    i ∈ ((cfg0.win 2).blk t).view.set ↔ ∀ a : Fin 3, win0_2.index t a * S1x1x2048.size a ≤ (i a).val ∧ (i a).val < win0_2.index t a * S1x1x2048.size a + S1x1x2048.size a := by
  show i ∈ ((View.whole main_v0_0).slice (win0_2.rect t)).set ↔ _
  rw [View.set_slice_whole, Rect.mem_set_unit]
  exact Iff.rfl

/-- Every entry `(b, 0, k)` of the first output array is in the block the second tile of batch `b` writes back. -/
theorem cover2 (i : S16x1x2048.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 2048 := (i 2).isLt
  let t : Fin cfg0.N := ⟨2 * (i 0).val + 1, by rw [N32]; omega⟩
  have ht : t.val = 2 * (i 0).val + 1 := rfl
  obtain ⟨-, -, -, -, -, -, e0, e1, e2, -⟩ := Blocks.idx_facts t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 2048 ≤ (i 2).val ∧ (i 2).val < win0_2.index t (2 : Fin 3) * 2048 + 2048; omega

/-- The first output array after the run. -/
theorem final2 (c : Dev nD) : (dats m 0 c).arrAt 2 cfg0.N = G2 m c :=
  (dats m 0 c).arrAt_eq_of_cover 2 (G2 m c) (flushed2_eq m c) cover2

end Cert.KernelIdeal.Arrays

end
-- ==== Proof.KernelValue.lean ====
/-
  The kernel program's result at the ideal values.

  After the region the program drops the unit axis of each of the two `[16, 1, 2048]` output arrays and joins the two
  `[16, 2048]` arrays along the last axis. The first output array holds at `(b, 0, m)` the scores summed over the rows,
  the second at `(b, 0, n)` the scores summed over the columns, so the result is the two marginals joined.
-/
import proofs.«117064_j70970039599490_2_alg».proof.Proof.Arrays
import proofs.«117064_j70970039599490_2_alg».proof.Proof.LibUnitAxis
import Idealize.ShloMosaic.Lib.StableHlo.Run
import Idealize.ShloMosaic.Lib.Pipeline.FrameSuffix

noncomputable section

namespace Cert.KernelIdeal.KernelValue

open Idealize.ShloMosaic Idealize.ShloMosaic.TcCoe Idealize.ShloMosaic.ValueIdx Idealize.SL.Sem Cert.KernelIdeal Cert.KernelIdeal.Gen
open Idealize.ShloMosaic.Pipeline (Dat)
open Idealize.ShloMosaic.StableHlo
open Cert.Marginals (score overRows overCols)

variable (m : (ℓ : Loc nD τ sig) → Buf (Elt Ideal) ℓ) (ρ : Dev nD → PrngReg)

/-- The program's result: the scores summed over the rows, then the scores summed over the columns, along the last axis. -/
def result (c : Dev nD) : Buf (Elt Ideal) ((c : Thread nD τ).loc main_v3) :=
  concatenate S16x4096 1 [⟨S16x2048, overRows (V m c main_arg0) (V m c main_arg1)⟩,
    ⟨S16x2048, overCols (V m c main_arg0) (V m c main_arg1)⟩] concatenates_S16x2048_S16x2048_S16x4096_d1

/-- The first output array without its unit axis is the sum over the rows. -/
theorem rows_eq (c : Dev nD) :
    shapeCast S16x2048 (Arrays.G2 m c) shapeCasts_S16x1x2048_S16x2048 = overRows (V m c main_arg0) (V m c main_arg1) := by
  funext i
  obtain ⟨b, mm, rfl⟩ : ∃ (b : Fin 16) (mm : Fin 2048), i = ix2 b mm := ⟨i 0, i 1, eq_ix2 i⟩
  rw [Cert.LibUnitAxis.dropMid_ix]
  rfl

/-- The second output array without its unit axis is the sum over the columns. -/
theorem cols_eq (c : Dev nD) :
    shapeCast S16x2048 (Arrays.G3 m c) shapeCasts_S16x1x2048_S16x2048 = overCols (V m c main_arg0) (V m c main_arg1) := by
  funext i
  obtain ⟨b, n, rfl⟩ : ∃ (b : Fin 16) (n : Fin 2048), i = ix2 b n := ⟨i 0, i 1, eq_ix2 i⟩
  rw [Cert.LibUnitAxis.dropMid_ix]
  rfl

/-- What the host operations after the region compute from the region's two output arrays. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e2 : Pipeline.withArrays (cfgs 0).spec c (V0 m c) (fun w => (dats m 0 c).arrAt w (cfgs 0).N) (Proc.tc.devRef main_v0_0)
      = Arrays.G2 m c := (Pipeline.withArrays_arr spec0 launch0.win.arr_inj c _ _ 2).trans (Arrays.final2 m c)
  have e3 : Pipeline.withArrays (cfgs 0).spec c (V0 m c) (fun w => (dats m 0 c).arrAt w (cfgs 0).N) (Proc.tc.devRef main_v0_1)
      = Arrays.G3 m c := (Pipeline.withArrays_arr spec0 launch0.win.arr_inj c _ _ 3).trans (Arrays.final3 m c)
  rw [e2, e3]
  show concatenate S16x4096 1 [⟨S16x2048, shapeCast S16x2048 (Arrays.G2 m c) shapeCasts_S16x1x2048_S16x2048⟩,
    ⟨S16x2048, shapeCast S16x2048 (Arrays.G3 m c) shapeCasts_S16x1x2048_S16x2048⟩] concatenates_S16x2048_S16x2048_S16x4096_d1 = _
  rw [rows_eq, cols_eq]
  rfl

/-- Every weakly fair execution of the kernel program terminates with the result array at the two marginals joined and
    the two operands unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v3 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference, read as the two marginals.

  The reference forms the whole batched score array `S (b, n, m) = ∑ d, x (b, n, d) * y (b, m, d)`, sums it from the
  zero along the axis of `n` and along the axis of `m`, and joins the two `[16, 2048]` arrays along the last axis. Read
  entry by entry the two sums are the sum of the scores over the rows and over the columns (the zero they start
  from adds nothing).
-/
import proofs.«117064_j70970039599490_2_alg».proof.Proof.Gen.ReferenceIdeal.Read
import proofs.«117064_j70970039599490_2_alg».proof.Proof.Marginals

noncomputable section

namespace Cert.ReferenceIdeal.RefValue

open Idealize.ShloMosaic Idealize.ShloMosaic.ValueIdx Cert.ReferenceIdeal Cert.ReferenceIdeal.Gen Cert.ReferenceIdeal.Read
open Cert.Marginals (score overRows overCols)

/-- The sum along the axis of `n`: at `(b, m)`, the scores of batch `b` against row `m` of `y`, summed over the rows of `x`. -/
theorem v1_eq (x y : (⟨S16x2048x256, .f32⟩ : BufTy).Contents (Elt Ideal)) :
    val_main_v1 (F := Ideal) x y = overRows x y := by
  funext i
  rw [val_main_v1_apply, val_main_cst_apply]
  show Ideal.ofBits .f32 0x00000000#32 + _ = _
  rw [Ideal.ofBits_zero_f32, zero_add]
  unfold overRows
  refine Finset.sum_congr rfl fun n _ => ?_
  rw [val_main_v0_apply]
  unfold score
  refine Finset.sum_congr rfl fun d _ => ?_
  refine congrArg₂ (· * ·) (congrArg x (funext fun a => Fin.ext ?_)) (congrArg y (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

/-- The sum along the axis of `m`: at `(b, n)`, the scores of batch `b` of row `n` of `x`, summed over the rows of `y`. -/
theorem v2_eq (x y : (⟨S16x2048x256, .f32⟩ : BufTy).Contents (Elt Ideal)) :
    val_main_v2 (F := Ideal) x y = overCols x y := by
  funext i
  rw [val_main_v2_apply, val_main_cst_0_apply]
  show Ideal.ofBits .f32 0x00000000#32 + _ = _
  rw [Ideal.ofBits_zero_f32, zero_add]
  unfold overCols
  refine Finset.sum_congr rfl fun mm _ => ?_
  rw [val_main_v0_apply]
  unfold score
  refine Finset.sum_congr rfl fun d _ => ?_
  refine congrArg₂ (· * ·) (congrArg x (funext fun a => Fin.ext ?_)) (congrArg y (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

/-- The reference's result: the two marginals joined along the last axis. -/
theorem result_eq (x y : (⟨S16x2048x256, .f32⟩ : BufTy).Contents (Elt Ideal)) :
    val_main_v3 (F := Ideal) x y
      = concatenate S16x4096 1 [⟨S16x2048, overRows x y⟩, ⟨S16x2048, overCols x y⟩] concatenates_S16x2048_S16x2048_S16x4096_d1 := by
  unfold val_main_v3
  rw [v1_eq, v2_eq]

end Cert.ReferenceIdeal.RefValue

end
-- ==== Proof.lean ====
/-
  The marginals of a batched score matrix: the kernel against its reference, over the extended reals.

  For `x, y : [16, 2048, 256]` both programs return the `[16, 4096]` array whose first half holds, at `(b, m)`, the sum
  over the rows `n` of the scores `S b n m = ∑ d, x (b, n, d) * y (b, m, d)`, and whose second half holds, at `(b, n)`, the
  sum over the columns `m` of the same scores.

  The kernel walks a grid of 16 batches by 2 tiles of 1024 rows. At each point it forms the tile's 1024-by-2048 score
  block as a product of the two loaded blocks and reduces it both ways by products with a row of ones: the column
  sums are accumulated over the batch's two tiles into one output block (zeroed at the first tile), the row sums are
  the tile's own output block. After the region the two output arrays lose their unit axis and are joined. The
  reference forms all the scores at once, sums them along either axis from the zero, and joins the two.

  At the ideal values every product and sum is exact, a factor `1` and a summand `0` change nothing, and a sum over 2048
  rows is the sum over its two halves; these hold for every extended real, so the finiteness of the inputs is never used.
  The idealization rewrote no operation of the kernel, so that conjunct is trivial. Each program's frame is its run with
  the result forgotten.
-/
import proofs.«117064_j70970039599490_2_alg».proof.Defs
import proofs.«117064_j70970039599490_2_alg».proof.Proof.Gen.Kernel
import proofs.«117064_j70970039599490_2_alg».proof.Proof.Gen.Kernel.Frame
import proofs.«117064_j70970039599490_2_alg».proof.Proof.Gen.KernelIdeal
import proofs.«117064_j70970039599490_2_alg».proof.Proof.Gen.KernelIdeal.Frame
import proofs.«117064_j70970039599490_2_alg».proof.Proof.Gen.ReferenceIdeal
import proofs.«117064_j70970039599490_2_alg».proof.Proof.Gen.ReferenceIdeal.Run
import proofs.«117064_j70970039599490_2_alg».proof.Proof.Gen.ReferenceIdeal.Read
import proofs.«117064_j70970039599490_2_alg».proof.Proof.Gen.Pre_finite_inputs
import proofs.«117064_j70970039599490_2_alg».proof.Proof.KernelValue
import proofs.«117064_j70970039599490_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values the kernel program ends with its result array at the two marginals joined, and so does the
    reference, of operands that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
